-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x64 : Shape := ⟨2, ![512, 64]⟩
abbrev S64x512 : Shape := ⟨2, ![64, 512]⟩
abbrev S1 : Shape := ⟨1, ![1]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64x512 : S_.BroadcastsInDim S64x512 (![] : Fin 0 → Fin S64x512.rank)
  reducesTo_S64x512_S_d0_1 : S64x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x512 .f32) (main_arg5 : FVec F S1 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64x512 .f32 := Host.absf main_arg4
  let main_cst_6 : FVec F S_ .f32 := constant S_ .f32 0x7F800000#32
  let main_v20 : FVec F S64x512 .f32 := broadcastInDim S64x512 ![] bcast_S_S64x512 main_cst_6
  let main_v21 : IVec S64x512 1 := cmpf .olt main_v19 main_v20
  let main_c_7 : IVec S_ 1 := constantI S_ 1 1#1
  let main_v22 : IVec S_ 1 := (fun x v => Host.reduce IntOp.andi x v reducesTo_S64x512_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4x4096x512 .f32) (main_arg1 : FVec F S512x64 .f32) (main_arg2 : FVec F S512x64 .f32) (main_arg3 : FVec F S512x64 .f32) (main_arg4 : FVec F S64x512 .f32) (main_arg5 : FVec F S1 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_v13 main_v16
-- ==== Kernel.lean ====
abbrev S4x4096x512 : Shape := ⟨3, ![4, 4096, 512]⟩
abbrev S512x64 : Shape := ⟨2, ![512, 64]⟩
abbrev S64x512 : Shape := ⟨2, ![64, 512]⟩
abbrev S1 : Shape := ⟨1, ![1]⟩
abbrev S4x4096x4096 : Shape := ⟨3, ![4, 4096, 4096]⟩
abbrev S1x4096x512 : Shape := ⟨3, ![1, 4096, 512]⟩
abbrev S1x128x512 : Shape := ⟨3, ![1, 128, 512]⟩
abbrev S1x4096x128 : Shape := ⟨3, ![1, 4096, 128]⟩
abbrev S64x4096 : Shape := ⟨2, ![64, 4096]⟩
abbrev S4096x64 : Shape := ⟨2, ![4096, 64]⟩
abbrev S4096x512 : Shape := ⟨2, ![4096, 512]⟩
abbrev S128x512 : Shape := ⟨2, ![128, 512]⟩
abbrev S128x64 : Shape := ⟨2, ![128, 64]⟩
abbrev S128x4096 : Shape := ⟨2, ![128, 4096]⟩
abbrev S128 : Shape := ⟨1, ![128]⟩
abbrev S128x1 : Shape := ⟨2, ![128, 1]⟩
abbrev S4096x128 : Shape := ⟨2, ![4096, 128]⟩

abbrev nBuf : Space → Nat
  | .hbm => 8
  | .vmem => 12
  | .smem => 0
  | _ => 0

abbrev bufTy : (tb : Table) → Fin (tcTables nBuf tb) → BufTy
  | .hbm, ⟨0, _⟩ => ⟨S4x4096x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S64x512, .f32⟩
  | .hbm, ⟨5, _⟩ => ⟨S1, .f32⟩
  | .hbm, ⟨6, _⟩ => ⟨S4x4096x512, .f32⟩
  | .hbm, ⟨7, _⟩ => ⟨S4x4096x4096, .f32⟩
  | .local _ .vmem, ⟨0, _⟩ => ⟨S1, .f32⟩
  | .local _ .vmem, ⟨1, _⟩ => ⟨S1x4096x512, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S64x512, .f32⟩
  | .local _ .vmem, ⟨6, _⟩ => ⟨S1x128x512, .f32⟩
  | .local _ .vmem, ⟨7, _⟩ => ⟨S1x128x512, .f32⟩
  | .local _ .vmem, ⟨8, _⟩ => ⟨S1x4096x128, .f32⟩
  | .local _ .vmem, ⟨9, _⟩ => ⟨S1x4096x128, .f32⟩
  | .local _ .vmem, ⟨10, _⟩ => ⟨S64x4096, .bf16⟩
  | .local _ .vmem, ⟨11, _⟩ => ⟨S4096x64, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 3 → Nat :=
  let c0 : Index := 0#32
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  let c0_1 : Index := 0#32
  ![0, v5.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  transposes_S4096x64_p1_0_S64x4096 : S4096x64.Transposes [1, 0] S64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  packedbf16_S4096x64_S4096x64_0_0 : (Rect.unit (s := S4096x64) ![0, 0] S4096x64.size inb_S4096x64_S4096x64_0_0).PackedRows (EltTy.packing .bf16)
  h_S1x128x512 : 0 < S1x128x512.numel
  shapeCasts_S1x128x512_S128x512 : S1x128x512.ShapeCasts S128x512
  reduces_S128x4096_S128 : S128x4096.Reduces [1] S128
  shapeCasts_S128_S128x1 : S128.ShapeCasts S128x1
  broadcasts_S128x1_S128x4096 : S128x1.Broadcasts S128x4096
  inb_S64x512_S64x512_0_0 : ∀ a, (![0, 0] : Fin 2 → Nat) a + S64x512.size a ≤ S64x512.size a
  h_S64x512 : 0 < S64x512.numel
  inb_S1_S1_0 : ∀ a, (![0] : Fin 1 → Nat) a + S1.size a ≤ S1.size a
  h_S1 : 0 < S1.numel
  inpos_S1_p0 : ∀ a, (![0] : Fin 1 → Nat) a < S1.size a
  inb_S1x128x512_S1x128x512_0_0_0 : ∀ a, (![0, 0, 0] : Fin 3 → Nat) a + S1x128x512.size a ≤ S1x128x512.size a
  shapeCasts_S128x512_S1x128x512 : S128x512.ShapeCasts S1x128x512
  transposes_S128x4096_p1_0_S4096x128 : S128x4096.Transposes [1, 0] S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  dot_S4096x512_S512x64_S4096x64_1_0_0_1_n_n_wf : DotDims.WF S4096x512 S512x64 S4096x64 [1] [0] [0] [1] [] []
  dot_S128x512_S512x64_S128x64_1_0_0_1_n_n_wf : DotDims.WF S128x512 S512x64 S128x64 [1] [0] [0] [1] [] []
  dot_S128x64_S64x4096_S128x4096_1_0_0_1_n_n_wf : DotDims.WF S128x64 S64x4096 S128x4096 [1] [0] [0] [1] [] []
  dot_S128x4096_S4096x64_S128x64_1_0_0_1_n_n_wf : DotDims.WF S128x4096 S4096x64 S128x64 [1] [0] [0] [1] [] []
  dot_S128x64_S64x512_S128x512_1_0_0_1_n_n_wf : DotDims.WF S128x64 S64x512 S128x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x128x512.size a ≤ S1x4096x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .f32 = 32 ∨ (Rect.block (s := S1) S1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096x512.size a ≤ S4x4096x512.size a
  hwx0_1 : ∀ i : grid0.Coords, EltTy.bits .f32 = 32 ∨ (Rect.block (s := S4x4096x512) S1x4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .f32 = 32 ∨ (Rect.block (s := S512x64) S512x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x512.size a ≤ S64x512.size a
  hwx0_5 : ∀ i : grid0.Coords, EltTy.bits .f32 = 32 ∨ (Rect.block (s := S64x512) S64x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x512.size a ≤ S4x4096x512.size a
  hwx0_6 : ∀ i : grid0.Coords, EltTy.bits .f32 = 32 ∨ (Rect.block (s := S4x4096x512) S1x128x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x128.size a ≤ S4x4096x4096.size a
  hwx0_7 : ∀ i : grid0.Coords, EltTy.bits .f32 = 32 ∨ (Rect.block (s := S4x4096x4096) S1x4096x128.size (cc0_transform_7 i) (hinb0_7 i)).WholeWords (EltTy.packing .f32)

variable [Facts₀]

def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S128x512_S512x64_S128x64_1_0_0_1_n_n : DotDims S128x512 S512x64 S128x64 where
  lhsContracting := [1]
  rhsContracting := [0]
  lhsNonContracting := [0]
  rhsNonContracting := [1]
  lhsBatch := []
  rhsBatch := []
  wf := dot_S128x512_S512x64_S128x64_1_0_0_1_n_n_wf
def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S128x4096_S4096x64_S128x64_1_0_0_1_n_n : DotDims S128x4096 S4096x64 S128x64 where
  lhsContracting := [1]
  rhsContracting := [0]
  lhsNonContracting := [0]
  rhsNonContracting := [1]
  lhsBatch := []
  rhsBatch := []
  wf := dot_S128x4096_S4096x64_S128x64_1_0_0_1_n_n_wf
def dot_S128x64_S64x512_S128x512_1_0_0_1_n_n : DotDims S128x64 S64x512 S128x512 where
  lhsContracting := [1]
  rhsContracting := [0]
  lhsNonContracting := [0]
  rhsNonContracting := [1]
  lhsBatch := []
  rhsBatch := []
  wf := dot_S128x64_S64x512_S128x512_1_0_0_1_n_n_wf

abbrev win0_0 : Pipeline.Window sig grid0 :=
  Pipeline.Window.ofSpec (Memref.whole main_arg5) S1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x128x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S512x64 : Shape := ⟨2, ![512, 64]⟩
abbrev S64x512 : Shape := ⟨2, ![64, 512]⟩
abbrev S1 : Shape := ⟨1, ![1]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S1x1x1 : Shape := ⟨3, ![1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S64x512, .f32⟩
  | .hbm, ⟨5, _⟩ => ⟨S1, .f32⟩
  | .hbm, ⟨6, _⟩ => ⟨S4x4096x64, .f32⟩
  | .hbm, ⟨7, _⟩ => ⟨S4x4096x64, .f32⟩
  | .hbm, ⟨8, _⟩ => ⟨S4x4096x64, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x1x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x1x4096, .f32⟩
  | .hbm, ⟨22, _⟩ => ⟨S4x4096x4096, .f32⟩
  | .hbm, ⟨23, _⟩ => ⟨S4x4096x4096, .f32⟩
  | .hbm, ⟨24, _⟩ => ⟨S4x4096x64, .f32⟩
  | .hbm, ⟨25, _⟩ => ⟨S4x4096x512, .f32⟩
  | .hbm, ⟨26, _⟩ => ⟨S1x1x1, .f32⟩
  | .hbm, ⟨27, _⟩ => ⟨S4x4096x512, .f32⟩
  | .hbm, ⟨28, _⟩ => ⟨S4x4096x512, .f32⟩
  | .hbm, ⟨29, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S1_S1x1x1_2 : S1.BroadcastsInDim S1x1x1 (![2] : Fin 1 → Fin S1x1x1.rank)
  bcast_S1x1x1_S4x4096x512_0_1_2 : S1x1x1.BroadcastsInDim S4x4096x512 (![0, 1, 2] : Fin 3 → Fin S4x4096x512.rank)
  dot_S4x4096x512_S512x64_S4x4096x64_2_0_01_1_n_n_wf : DotDims.WF S4x4096x512 S512x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_1_1_2_2_0_0_wf : DotDims.WF S4x4096x4096 S4x4096x64 S4x4096x64 [1] [1] [2] [2] [0] [0]
  dot_S4x4096x64_S64x512_S4x4096x512_2_0_01_1_n_n_wf : DotDims.WF S4x4096x64 S64x512 S4x4096x512 [2] [0] [0, 1] [1] [] []

variable [Facts₀]

def dot_S4x4096x512_S512x64_S4x4096x64_2_0_01_1_n_n : DotDims S4x4096x512 S512x64 S4x4096x64 where
  lhsContracting := [2]
  rhsContracting := [0]
  lhsNonContracting := [0, 1]
  rhsNonContracting := [1]
  lhsBatch := []
  rhsBatch := []
  wf := dot_S4x4096x512_S512x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_1_1_2_2_0_0 : DotDims S4x4096x4096 S4x4096x64 S4x4096x64 where
  lhsContracting := [1]
  rhsContracting := [1]
  lhsNonContracting := [2]
  rhsNonContracting := [2]
  lhsBatch := [0]
  rhsBatch := [0]
  wf := dot_S4x4096x4096_S4x4096x64_S4x4096x64_1_1_2_2_0_0_wf
def dot_S4x4096x64_S64x512_S4x4096x512_2_0_01_1_n_n : DotDims S4x4096x64 S64x512 S4x4096x512 where
  lhsContracting := [2]
  rhsContracting := [0]
  lhsNonContracting := [0, 1]
  rhsNonContracting := [1]
  lhsBatch := []
  rhsBatch := []
  wf := dot_S4x4096x64_S64x512_S4x4096x512_2_0_01_1_n_n_wf

class Facts : Prop extends Facts₀ where

variable [Facts]
-- ==== Proof.Found.lean ====
/-
  What one grid point's body leaves behind, as values.

  The grid is (batch, tile): 4 batches of 32 tiles of 128 tokens.  At a batch's first tile the body projects the
  whole staged slab to queries and values and keeps both in two scratch buffers; at every tile it projects the
  tile's 128 tokens to keys, takes their logits against all the kept queries, normalises each key's row, mixes the
  kept values, projects back and adds the tile.  Each buffer the body stores into is stored whole by one store, so
  what it holds afterwards is that store's value; a kept buffer read back in the same body reads the value just
  stored.  The lemmas below say this buffer by buffer, for any float values.
-/
import proofs.«122561_j13855564497213_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

variable (c : Dev nD) (i : grid0.Coords) (arg2 : Memref sig .tc .vmem S1 .f32) (harg2 : arg2.IsWhole) (arg3 : Memref sig .tc .vmem S1x4096x512 .f32) (harg3 : arg3.IsWhole) (arg4 : Memref sig .tc .vmem S512x64 .f32) (harg4 : arg4.IsWhole) (arg5 : Memref sig .tc .vmem S512x64 .f32) (harg5 : arg5.IsWhole) (arg6 : Memref sig .tc .vmem S512x64 .f32) (harg6 : arg6.IsWhole) (arg7 : Memref sig .tc .vmem S64x512 .f32) (harg7 : arg7.IsWhole) (arg8 : Memref sig .tc .vmem S1x128x512 .f32) (harg8 : arg8.IsWhole) (arg9 : Memref sig .tc .vmem S1x4096x128 .f32) (harg9 : arg9.IsWhole) (arg10 : Memref sig .tc .vmem S64x4096 .bf16) (harg10 : arg10.IsWhole) (arg11 : Memref sig .tc .vmem S4096x64 .bf16) (harg11 : arg11.IsWhole)
  (x0 : Vec F S1 .f32) (x1 : Vec F S1x4096x512 .f32) (x2 : Vec F S512x64 .f32) (x3 : Vec F S512x64 .f32) (x4 : Vec F S512x64 .f32) (x5 : Vec F S64x512 .f32)

/-- The 128-token tile of the staged slab that a grid point's body loads: rows `128·(tile number)` onward. -/
abbrev tile (i : grid0.Coords) (x1 : Vec F S1x4096x512 .f32) : Vec F S1x128x512 .f32 :=
  View.ld x1 (Rect.unit (s := S1x4096x512) (k0_off1 i) S1x128x512.size (k0_off1_inb i))

/-! ## A batch's first tile: the projections are computed and kept -/

/-- The first scratch ends the point holding the transposed query projection of the staged slab. -/
theorem kept_q (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 = k0_pay4 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_run_names
  rw [View.canon_unit_zero hz2]
  simp only [View.readAt_eq_ld, harg3.read_unread, harg4.read_unread, View.ld_unit_zero (S := S1x4096x512) hz3, View.ld_unit_zero (S := S512x64) hz2]

/-- The second scratch ends the point holding the value projection of the staged slab. -/
theorem kept_v (hc0 : cond0_0 i) :
    sout0_A_1 c i arg2 harg2 arg3 harg3 arg4 harg4 arg5 harg5 arg6 harg6 arg7 harg7 arg8 harg8 arg9 harg9 arg10 harg10 arg11 harg11 hc0 x0 x1 x2 x3 x4 x5 = k0_pay5 x1 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_run_names
  rw [View.canon_unit_zero hz2]
  simp only [View.readAt_eq_ld, harg3.read_unread, harg6.read_unread, View.ld_unit_zero (S := S1x4096x512) hz3, View.ld_unit_zero (S := S512x64) hz2]

/-- The attention block the first tile writes: the tile's softmax rows over the query projection just stored (the body
    reads the scratch back after storing it), transposed into (query, key) order. -/
theorem first_attn (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5 = k0_pay2 (k0_pay7 (tile i x1) x3 (k0_pay4 x1 x2)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_run_names
  rw [View.canon_unit_zero hz3]
  rw [View.readCov_unit_zero (S := S64x4096) _ hz2]
  simp only [View.readAt_eq_ld, harg3.read_unread, harg4.read_unread, harg5.read_unread, View.ld_unit_zero (S := S1x4096x512) hz3, View.ld_unit_zero (S := S512x64) hz2]

/-- The result block the first tile writes: the tile plus its scaled, projected mixture, over both projections just
    stored. -/
theorem first_res (hc0 : cond0_0 i) :
    out0_A_6 c i arg2 harg2 arg3 harg3 arg4 harg4 arg5 harg5 arg6 harg6 arg7 harg7 arg8 harg8 arg9 harg9 arg10 harg10 arg11 harg11 hc0 x0 x1 x2 x3 x4 x5
      = k0_pay1 (k0_pay6 (tile i x1)) (k0_pay8 (tile i x1) x3 (k0_pay4 x1 x2) (k0_pay5 x1 x4) x5) (k0_pay9 x0) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_run_names
  rw [View.canon_unit_zero hz3]
  rw [View.readCov_unit_zero (S := S64x4096) _ hz2, View.readCov_unit_zero (S := S4096x64) _ hz2]
  simp only [View.readAt_eq_ld, harg2.read_unread, harg3.read_unread, harg4.read_unread, harg5.read_unread, harg6.read_unread, harg7.read_unread, View.ld_unit_zero (S := S1x4096x512) hz3, View.ld_unit_zero (S := S512x64) hz2, View.ld_unit_zero (S := S64x512) hz2, View.ld_unit_zero (S := S1) hz1]

/-! ## A batch's later tiles: the kept projections are read -/

/-- The attention block a later tile writes, over the query projection `xs0` the scratch was left holding. -/
theorem later_attn (hc0 : ¬cond0_0 i) (xs0 : Vec F S64x4096 .bf16) (xs1 : Vec F S4096x64 .bf16) :
    out0_B_7 c i arg2 harg2 arg3 harg3 arg4 harg4 arg5 harg5 arg6 harg6 arg7 harg7 arg8 harg8 arg9 harg9 arg10 harg10 arg11 harg11 hc0 x0 x1 x2 x3 x4 x5 xs0 xs1 = k0_pay2 (k0_pay7 (tile i x1) x3 xs0) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  sl_unfold_run_names
  rw [View.canon_unit_zero hz3]
  simp only [View.readAt_eq_ld, harg3.read_unread, harg5.read_unread, harg10.read_unread, View.ld_unit_zero (S := S64x4096) hz2, View.ld_unit_zero (S := S512x64) hz2]

/-- The result block a later tile writes, over the kept projections `xs0`, `xs1`. -/
theorem later_res (hc0 : ¬cond0_0 i) (xs0 : Vec F S64x4096 .bf16) (xs1 : Vec F S4096x64 .bf16) :
    out0_B_6 c i arg2 harg2 arg3 harg3 arg4 harg4 arg5 harg5 arg6 harg6 arg7 harg7 arg8 harg8 arg9 harg9 arg10 harg10 arg11 harg11 hc0 x0 x1 x2 x3 x4 x5 xs0 xs1
      = k0_pay1 (k0_pay6 (tile i x1)) (k0_pay8 (tile i x1) x3 xs0 xs1 x5) (k0_pay9 x0) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 xs0 xs1)]
  unfold kernelRun0_B
  dsimp only
  sl_unfold_run_names
  rw [View.canon_unit_zero hz3]
  simp only [View.readAt_eq_ld, harg2.read_unread, harg3.read_unread, harg5.read_unread, harg7.read_unread, harg10.read_unread, harg11.read_unread, View.ld_unit_zero (S := S64x4096) hz2, View.ld_unit_zero (S := S4096x64) hz2, View.ld_unit_zero (S := S512x64) hz2, View.ld_unit_zero (S := S64x512) hz2, View.ld_unit_zero (S := S1) hz1]

end Cert.KernelIdeal.Found

end
-- ==== Proof.Points.lean ====
/-
  The grid point by point.

  Point `t` of the 128 is tile `t % 32` of batch `t / 32`.  Its slab block is the batch's slab of the input, its
  weight blocks are the weight arrays, and the body's tile is the slab's rows `128·(t % 32)` onward.  The two
  scratch buffers are written at a batch's first tile and only read afterwards, so after every point they hold
  the query and value projections of the point's batch; hence every point's two written blocks are the same two
  functions of the argument arrays, the point's batch and its tile.  The proof is an induction on the point.
-/
import proofs.«122561_j13855564497213_1_alg».proof.Proof.Found
import proofs.«122561_j13855564497213_1_alg».proof.Proof.Gen.KernelIdeal.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Points

open Cert.KernelIdeal Cert.KernelIdeal.Gen Cert.KernelIdeal.Found

variable {F : FTy → Type} [FloatOps F]
variable (m : (ℓ : Loc nD τ sig) → Buf (Elt F) ℓ) (ρ : Dev nD → PrngReg)

/-! ## The grid: 128 points, point `t` is tile `t % 32` of batch `t / 32` -/

/-- Where each window's block sits at each point, decided once over the 128 points: the slab window follows the
    batch, the weights and the scale never move, the result block is (batch, tile, 0), the attention block
    (batch, 0, tile); and the body's tile number is `t % 32`. -/
theorem idx_facts : ∀ t : Fin cfg0.N,
    win0_0.index t (0 : Fin 1) = 0
    ∧ win0_1.index t (0 : Fin 3) = t.val / 32 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 32 ∧ win0_6.index t (1 : Fin 3) = t.val % 32 ∧ win0_6.index t (2 : Fin 3) = 0
    ∧ win0_7.index t (0 : Fin 3) = t.val / 32 ∧ win0_7.index t (1 : Fin 3) = 0 ∧ win0_7.index t (2 : Fin 3) = t.val % 32
    ∧ ((grid0.coords t) 1).val = t.val % 32 :=
  (by decide +kernel : ∀ t : Fin grid0.N, _)

theorem lt128 (t : Fin cfg0.N) : t.val < 128 := lt_of_lt_of_eq t.isLt (show cfg0.N = 128 from N_0)

/-- The batch of a grid point. -/
def bat (t : Fin cfg0.N) : Fin 4 := ⟨t.val / 32, by have := lt128 t; omega⟩
/-- The tile of a grid point. -/
def til (t : Fin cfg0.N) : Fin 32 := ⟨t.val % 32, Nat.mod_lt _ (by decide)⟩

/-- Batch `b`'s slab of the input array, as a [1, 4096, 512] block. -/
def slabOf (c : Dev nD) (b : Fin 4) : Vec F S1x4096x512 .f32 :=
  fun y => m ((c : Thread nD τ).loc main_arg0) (ix3 b (⟨(y 1).val, (y 1).isLt⟩ : Fin 4096) (⟨(y 2).val, (y 2).isLt⟩ : Fin 512))

/-- The slab window's block at a point is its batch's slab. -/
theorem slab_block (c : Dev nD) (t : Fin cfg0.N) (n : Fin 4096) (cc : Fin 512) :
    (iblk m c 1 t : Vec F S1x4096x512 .f32) (ix3 (0 : Fin 1) n cc)
      = m ((c : Thread nD τ).loc main_arg0) (ix3 (bat t) n cc) := by
  obtain ⟨-, e0, e1, e2, -⟩ := idx_facts t
  unfold iblk
  rw [View.read_apply]
  show V m c main_arg0 _ = m (c.tc.loc main_arg0) _
  unfold V
  congr 1
  funext a
  apply Fin.ext
  match a with
  | ⟨0, _⟩ => show win0_1.index t (0 : Fin 3) * 1 + 1 * 0 = t.val / 32; omega
  | ⟨1, _⟩ => show win0_1.index t (1 : Fin 3) * 4096 + 1 * n.val = n.val; omega
  | ⟨2, _⟩ => show win0_1.index t (2 : Fin 3) * 512 + 1 * cc.val = cc.val; omega

theorem x_block (c : Dev nD) (t : Fin cfg0.N) : (iblk m c 1 t : Vec F S1x4096x512 .f32) = slabOf m c (bat t) := by
  funext y
  obtain ⟨u, n, cc, rfl⟩ : ∃ (u : Fin 1) (n : Fin 4096) (cc : Fin 512), y = ix3 u n cc := ⟨y 0, y 1, y 2, eq_ix3 y⟩
  obtain rfl : u = 0 := Subsingleton.elim _ _
  exact slab_block m c t n cc

/-- The weight windows' blocks are the weight arrays, and the scale window's block the scale, at every point. -/
theorem wq_block (c : Dev nD) (t : Fin cfg0.N) : (iblk m c 2 t : Vec F S512x64 .f32) = m ((c : Thread nD τ).loc main_arg1) := by
  obtain ⟨-, -, -, -, e0, e1, -⟩ := idx_facts t
  funext y
  unfold iblk
  rw [View.read_apply]
  show V m c main_arg1 _ = m (c.tc.loc main_arg1) _
  unfold V
  congr 1
  funext a
  apply Fin.ext
  match a with
  | ⟨0, _⟩ => show win0_2.index t (0 : Fin 2) * 512 + 1 * (y 0).val = (y 0).val; omega
  | ⟨1, _⟩ => show win0_2.index t (1 : Fin 2) * 64 + 1 * (y 1).val = (y 1).val; omega

theorem wk_block (c : Dev nD) (t : Fin cfg0.N) : (iblk m c 3 t : Vec F S512x64 .f32) = m ((c : Thread nD τ).loc main_arg2) := by
  obtain ⟨-, -, -, -, -, -, e0, e1, -⟩ := idx_facts t
  funext y
  unfold iblk
  rw [View.read_apply]
  show V m c main_arg2 _ = m (c.tc.loc main_arg2) _
  unfold V
  congr 1
  funext a
  apply Fin.ext
  match a with
  | ⟨0, _⟩ => show win0_3.index t (0 : Fin 2) * 512 + 1 * (y 0).val = (y 0).val; omega
  | ⟨1, _⟩ => show win0_3.index t (1 : Fin 2) * 64 + 1 * (y 1).val = (y 1).val; omega

theorem wv_block (c : Dev nD) (t : Fin cfg0.N) : (iblk m c 4 t : Vec F S512x64 .f32) = m ((c : Thread nD τ).loc main_arg3) := by
  obtain ⟨-, -, -, -, -, -, -, -, e0, e1, -⟩ := idx_facts t
  funext y
  unfold iblk
  rw [View.read_apply]
  show V m c main_arg3 _ = m (c.tc.loc main_arg3) _
  unfold V
  congr 1
  funext a
  apply Fin.ext
  match a with
  | ⟨0, _⟩ => show win0_4.index t (0 : Fin 2) * 512 + 1 * (y 0).val = (y 0).val; omega
  | ⟨1, _⟩ => show win0_4.index t (1 : Fin 2) * 64 + 1 * (y 1).val = (y 1).val; omega

theorem wo_block (c : Dev nD) (t : Fin cfg0.N) : (iblk m c 5 t : Vec F S64x512 .f32) = m ((c : Thread nD τ).loc main_arg4) := by
  obtain ⟨-, -, -, -, -, -, -, -, -, -, e0, e1, -⟩ := idx_facts t
  funext y
  unfold iblk
  rw [View.read_apply]
  show V m c main_arg4 _ = m (c.tc.loc main_arg4) _
  unfold V
  congr 1
  funext a
  apply Fin.ext
  match a with
  | ⟨0, _⟩ => show win0_5.index t (0 : Fin 2) * 64 + 1 * (y 0).val = (y 0).val; omega
  | ⟨1, _⟩ => show win0_5.index t (1 : Fin 2) * 512 + 1 * (y 1).val = (y 1).val; omega

theorem g_block (c : Dev nD) (t : Fin cfg0.N) : (iblk m c 0 t : Vec F S1 .f32) = m ((c : Thread nD τ).loc main_arg5) := by
  obtain ⟨e0, -⟩ := idx_facts t
  funext y
  unfold iblk
  rw [View.read_apply]
  show V m c main_arg5 _ = m (c.tc.loc main_arg5) _
  unfold V
  congr 1
  funext a
  apply Fin.ext
  match a with
  | ⟨0, _⟩ => show win0_0.index t (0 : Fin 1) * 1 + 1 * (y 0).val = (y 0).val; omega

/-! ## What each point leaves: the kept projections, and the two blocks it writes -/

/-- The transposed query projection of batch `b`. -/
abbrev keptQ (c : Dev nD) (b : Fin 4) : Vec F S64x4096 .bf16 := k0_pay4 (slabOf m c b) (m ((c : Thread nD τ).loc main_arg1))
/-- The value projection of batch `b`. -/
abbrev keptV (c : Dev nD) (b : Fin 4) : Vec F S4096x64 .bf16 := k0_pay5 (slabOf m c b) (m ((c : Thread nD τ).loc main_arg3))
/-- The 128 tokens of point `t`'s tile. -/
abbrev tileAt (c : Dev nD) (t : Fin cfg0.N) : Vec F S1x128x512 .f32 := tile (grid0.coords t) (slabOf m c (bat t))
/-- The attention block point `t` writes. -/
abbrev attnBlk (c : Dev nD) (t : Fin cfg0.N) : Vec F S1x4096x128 .f32 :=
  k0_pay2 (k0_pay7 (tileAt m c t) (m ((c : Thread nD τ).loc main_arg2)) (keptQ m c (bat t)))
/-- The result block point `t` writes. -/
abbrev resBlk (c : Dev nD) (t : Fin cfg0.N) : Vec F S1x128x512 .f32 :=
  k0_pay1 (k0_pay6 (tileAt m c t))
    (k0_pay8 (tileAt m c t) (m ((c : Thread nD τ).loc main_arg2)) (keptQ m c (bat t)) (keptV m c (bat t)) (m ((c : Thread nD τ).loc main_arg4)))
    (k0_pay9 (m ((c : Thread nD τ).loc main_arg5)))

/-- After every point the two scratch buffers hold the projections of the point's batch, and the two staging buffers
    the point's blocks: at a batch's first tile the body has just computed the projections, at a later tile it has
    left them as the tile before did — by induction on the point. -/
theorem outs_eq (c : Dev nD) : ∀ (n : ℕ) (h : n < cfg0.N),
    outsAt0 m c n h = (resBlk m c ⟨n, h⟩, attnBlk m c ⟨n, h⟩, keptQ m c (bat ⟨n, h⟩), keptV m c (bat ⟨n, h⟩)) := by
  intro n
  induction n with
  | zero =>
    intro h
    have h0 : (⟨0, h⟩ : Fin cfg0.N).val % 32 = 0 := rfl
    refine (outsAt0_A m c ⟨0, h⟩ h0).trans ?_
    rw [first_res c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) ((hcond0_0 ⟨0, h⟩).mpr h0), first_attn c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) ((hcond0_0 ⟨0, h⟩).mpr h0),
      kept_q c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) ((hcond0_0 ⟨0, h⟩).mpr h0), kept_v c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) scM0_1 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) ((hcond0_0 ⟨0, h⟩).mpr h0)]
    rw [x_block, wq_block, wk_block, wv_block, wo_block, g_block]
  | succ n ih =>
    intro h
    have hN := lt128 ⟨n + 1, h⟩
    by_cases h0 : (⟨n + 1, h⟩ : Fin cfg0.N).val % 32 = 0
    · refine (outsAt0_A m c ⟨n + 1, h⟩ h0).trans ?_
      rw [first_res c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) ((hcond0_0 ⟨n + 1, h⟩).mpr h0), first_attn c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) ((hcond0_0 ⟨n + 1, h⟩).mpr h0),
        kept_q c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) ((hcond0_0 ⟨n + 1, h⟩).mpr h0), kept_v c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) ((hcond0_0 ⟨n + 1, h⟩).mpr h0)]
      rw [x_block, wq_block, wk_block, wv_block, wo_block, g_block]
    · refine (outsAt0_B m c ⟨n + 1, h⟩ h0).trans ?_
      rw [later_res c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (fun hh => h0 ((hcond0_0 ⟨n + 1, h⟩).mp hh)), later_attn c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (fun hh => h0 ((hcond0_0 ⟨n + 1, h⟩).mp hh))]
      unfold sout0_B_0 sout0_B_1
      have e := ih (Nat.lt_of_succ_lt h)
      have hb : bat (⟨n, Nat.lt_of_succ_lt h⟩ : Fin cfg0.N) = bat (⟨n + 1, h⟩ : Fin cfg0.N) := Fin.ext (by
        show n / 32 = (n + 1) / 32
        have : (n + 1) % 32 ≠ 0 := h0
        omega)
      show (k0_pay1 _ (k0_pay8 _ _ (outsAt0 m c n _).2.2.1 (outsAt0 m c n _).2.2.2 _) _, k0_pay2 (k0_pay7 _ _ (outsAt0 m c n _).2.2.1), (outsAt0 m c n _).2.2.1, (outsAt0 m c n _).2.2.2) = _
      rw [e]
      dsimp only
      rw [hb, x_block, wk_block, wo_block, g_block]

end Cert.KernelIdeal.Points

end
-- ==== Proof.Softmax.lean ====
/-
  Attention with the softmax taken down the QUERY axis, as one function of the argument arrays.

  A batch's tokens are a slab `xb n c` (4096 tokens, 512 channels).  Three 512→64 projections give the
  queries, keys and values, `proj W (xb n) d = ∑ c, xb n c · W c d`.  The logit of query `n` against key `m` is
  `∑ d, q n d · k m d`.  For a fixed key `m` the column of logits over all queries `n` is normalised:
  its maximum (taken from −∞, and once more against −∞) is subtracted, the exponentials are summed over `n`, and
  each exponential is divided by that sum: `att n m`.  The values are mixed down the same axis,
  `mix m d = ∑ n, att n m · v n d`, projected back through a 64→512 matrix, scaled by one number and added to
  the token: `res m c = xb m c + (∑ d, mix m d · Wo d c) · g`.
  Everything is over the extended reals; no law beyond the commutativity of a product is needed to compare two
  programs that compute these sums, so nothing here asks an entry to be finite.
-/
import Idealize.ShloMosaic.PureOps.Ideal
import Idealize.ShloMosaic.Lib.ValueIdx

noncomputable section

open scoped BigOperators

namespace Attn

open Idealize.ShloMosaic Idealize.ShloMosaic.ValueIdx

/-- The value a column's maximum starts from: the f32 word of −∞, kept as a word (it is the same word in both
    programs and is never evaluated). -/
abbrev negInf : EReal := Ideal.ofBits .f32 0xFF800000#32

/-- A 512→64 projection matrix. -/
abbrev Wt : Type := (⟨2, ![512, 64]⟩ : Shape).Idx → EReal
/-- The 64→512 output matrix. -/
abbrev Wo : Type := (⟨2, ![64, 512]⟩ : Shape).Idx → EReal
/-- One batch's tokens: token, channel. -/
abbrev Slab : Type := Fin 4096 → Fin 512 → EReal
/-- The whole input: batch, token, channel. -/
abbrev Arr : Type := (⟨3, ![4, 4096, 512]⟩ : Shape).Idx → EReal

/-- Feature `d` of a token's projection through `W`. -/
def proj (W : Wt) (row : Fin 512 → EReal) (d : Fin 64) : EReal := ∑ c : Fin 512, row c * W (ix2 c d)

/-- The logit of query token `n` against key token `m`. -/
def logit (Wq Wk : Wt) (xb : Slab) (n m : Fin 4096) : EReal := ∑ d : Fin 64, proj Wq (xb n) d * proj Wk (xb m) d

/-- The maximum of key `m`'s column of logits over the queries: folded from −∞, then taken against −∞ once more
    (the two steps both programs make). -/
def colMax (Wq Wk : Wt) (xb : Slab) (m : Fin 4096) : EReal :=
  max negInf ((Finset.univ : Finset (Fin 4096)).fold max negInf (fun n => logit Wq Wk xb n m))

/-- The exponential of a logit less its column's maximum. -/
def expo (Wq Wk : Wt) (xb : Slab) (n m : Fin 4096) : EReal := Ideal.exp (logit Wq Wk xb n m - colMax Wq Wk xb m)

/-- The sum of key `m`'s column of exponentials over the queries. -/
def colSum (Wq Wk : Wt) (xb : Slab) (m : Fin 4096) : EReal := ∑ n : Fin 4096, expo Wq Wk xb n m

/-- The attention weight of query `n` in key `m`'s column. -/
def att (Wq Wk : Wt) (xb : Slab) (n m : Fin 4096) : EReal := Ideal.div (expo Wq Wk xb n m) (colSum Wq Wk xb m)

/-- The values mixed down key `m`'s column. -/
def mix (Wq Wk Wv : Wt) (xb : Slab) (m : Fin 4096) (d : Fin 64) : EReal :=
  ∑ n : Fin 4096, att Wq Wk xb n m * proj Wv (xb n) d

/-- The token plus its scaled, projected mixture. -/
def res (Wq Wk Wv : Wt) (wo : Wo) (g : EReal) (xb : Slab) (m : Fin 4096) (c : Fin 512) : EReal :=
  xb m c + (∑ d : Fin 64, mix Wq Wk Wv xb m d * wo (ix2 d c)) * g

/-- Batch `b`'s slab of the input. -/
def slab (x : Arr) (b : Fin 4) : Slab := fun n c => x (ix3 b n c)

/-- The attention array: batch, query, key. -/
def attnOut (x : Arr) (Wq Wk : Wt) : (⟨3, ![4, 4096, 4096]⟩ : Shape).Idx → EReal :=
  fun i => att Wq Wk (slab x (i 0)) (i 1) (i 2)

/-- The result array: batch, token, channel. -/
def resOut (x : Arr) (Wq Wk Wv : Wt) (wo : Wo) (gamma : (⟨1, ![1]⟩ : Shape).Idx → EReal) : Arr :=
  fun i => res Wq Wk Wv wo (gamma (ix1 0)) (slab x (i 0)) (i 1) (i 2)

end Attn

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.BodyValues.lean ====
/-
  The kernel body's arithmetic read at one index, at the ideal values (the extended reals, where rounding to a
  narrower format and widening back are the identity).

  A batch's tokens are a slab xb n c.  The staged block X holds the slab, X (0, n, c) = xb n c; the 128-row tile of
  tile number j holds the slab's rows 128·j … 128·j + 127.  Each payload of the body is a composition of pointwise
  operations, plain matrix products into the zero accumulator, transposes, casts that add or drop a unit axis, and
  two row reductions whose results are kept as a column.  Read at an index:

  • the transposed query projection at (d, n) is ∑ c, xb n c · Wq c d, and the value projection at (n, d) is
    ∑ c, xb n c · Wv c d: a product of the slab with a 512→64 matrix, the first one transposed afterwards;
  • the tile's logits at (i, n) are ∑ d, k d · q d for the key token of row i of the tile and the query token n; the
    specification writes the same sum with the factors in the other order, and a product of extended reals
    commutes.  The row maximum folded from −∞ and taken once more against −∞, the exponentials of the differences,
    their row sum and the quotient are then the specification's column maximum, exponential, column sum and
    attention weight of query n in the column of key 128·j + i;
  • the mixture's projection at (i, c) is ∑ d, (∑ n, att n m · v n d) · Wo d c for m = 128·j + i;
  • the stored result at (0, i, c) is the token plus that projection scaled by the one entry of the scale vector;
  • the stored attention tile is the transpose of the weights: entry (0, n, i) is the weight at (i, n).
-/
import proofs.«122561_j13855564497213_1_alg».proof.Proof.Gen.KernelIdeal.Skeleton
import proofs.«122561_j13855564497213_1_alg».proof.Proof.Softmax
import proofs.«122561_j13855564497213_1_alg».proof.Proof.LibPlainMatmul
import proofs.«122561_j13855564497213_1_alg».proof.Proof.LibKeptColumn
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-- Row i of tile number j is the slab's row 128·j + i. -/
def row (j : Fin 32) (i : Fin 128) : Fin 4096 := ⟨128 * j.val + i.val, by omega⟩

/-- The staged block with its unit axis dropped (and rounded, the identity here) reads the block at (0, n, c). -/
theorem block_apply (X : Vec Ideal S1x4096x512 .f32) (n : Fin 4096) (c : Fin 512) :
    k0_pay3 (F := Ideal) X (ix2 n c) = X (ix3 0 n c) := by
  unfold k0_pay3
  exact shapeCast_1ab_ab_apply X shapeCasts_S1x4096x512_S4096x512 n c

/-- The transposed query projection at (d, n): feature d of token n's projection through Wq. -/
theorem qT_apply (xb : Attn.Slab) (wq : Attn.Wt) (X : Vec Ideal S1x4096x512 .f32)
    (hX : ∀ n c, X (ix3 0 n c) = xb n c) (d : Fin 64) (n : Fin 4096) :
    k0_pay4 (F := Ideal) X wq (ix2 d n) = Attn.proj wq (xb n) d := by
  unfold k0_pay4
  rw [shapeCast_self]
  refine (truncf_apply (s := S64x4096) (φ := .f32) (ψ := .bf16) _ bitsLt_bf16_f32 (ix2 d n)).trans ?_
  refine (transpose_ix2_apply _ transposes_S4096x64_p1_0_S64x4096 d n).trans ?_
  refine (PlainMatmul.matmul_zero_apply dot_S4096x512_S512x64_S4096x64_1_0_0_1_n_n rfl rfl rfl rfl rfl rfl
    none _ _ n d).trans ?_
  unfold Attn.proj
  refine Finset.sum_congr rfl fun c _ => ?_
  rw [block_apply, hX]
  rfl

/-- The value projection at (n, d): feature d of token n's projection through Wv. -/
theorem v_apply (xb : Attn.Slab) (wv : Attn.Wt) (X : Vec Ideal S1x4096x512 .f32)
    (hX : ∀ n c, X (ix3 0 n c) = xb n c) (n : Fin 4096) (d : Fin 64) :
    k0_pay5 (F := Ideal) X wv (ix2 n d) = Attn.proj wv (xb n) d := by
  unfold k0_pay5
  rw [shapeCast_self]
  refine (truncf_apply (s := S4096x64) (φ := .f32) (ψ := .bf16) _ bitsLt_bf16_f32 (ix2 n d)).trans ?_
  refine (PlainMatmul.matmul_zero_apply dot_S4096x512_S512x64_S4096x64_1_0_0_1_n_n rfl rfl rfl rfl rfl rfl
    none _ _ n d).trans ?_
  unfold Attn.proj
  refine Finset.sum_congr rfl fun c _ => ?_
  rw [block_apply, hX]
  rfl

/-- The stored attention tile is the transpose of the weights: entry (0, n, i) is the weight at (i, n). -/
theorem attT_apply (a : Vec Ideal S128x4096 .f32) (n : Fin 4096) (i : Fin 128) :
    k0_pay2 (F := Ideal) a (ix3 0 n i) = a (ix2 i n) := by
  unfold k0_pay2
  refine (shapeCast_ab_1ab_apply _ shapeCasts_S4096x128_S1x4096x128 0 n i).trans ?_
  exact transpose_ix2_apply a transposes_S128x4096_p1_0_S4096x128 n i

/-! ## The tile's keys and logits -/

/-- The tile with its unit axis dropped reads the tile at (0, i, c). -/
theorem tile_apply (v6 : Vec Ideal S1x128x512 .f32) (i : Fin 128) (c : Fin 512) :
    k0_pay6 (F := Ideal) v6 (ix2 i c) = v6 (ix3 0 i c) := by
  unfold k0_pay6
  exact shapeCast_1ab_ab_apply v6 shapeCasts_S1x128x512_S128x512 i c

/-- The tile's key projection: the tile times the 512→64 key matrix. -/
def tileKeys (v6 : Vec Ideal S1x128x512 .f32) (wk : Vec Ideal S512x64 .f32) : FVec Ideal S128x64 .f32 :=
  matmul dot_S128x512_S512x64_S128x64_1_0_0_1_n_n none (truncf .bf16 (k0_pay6 v6) bitsLt_bf16_f32)
    (truncf .bf16 wk bitsLt_bf16_f32) (constant S128x64 .f32 0x00000000#32)

/-- Entry (i, d) of the tile's key projection: feature d of the projection of the token of row i of the tile. -/
theorem tileKeys_apply (xb : Attn.Slab) (wk : Attn.Wt) (j : Fin 32) (v6 : Vec Ideal S1x128x512 .f32)
    (hv6 : ∀ (i : Fin 128) (c : Fin 512), v6 (ix3 0 i c) = xb (row j i) c) (i : Fin 128) (d : Fin 64) :
    tileKeys v6 wk (ix2 i d) = Attn.proj wk (xb (row j i)) d := by
  unfold tileKeys
  refine (PlainMatmul.matmul_zero_apply dot_S128x512_S512x64_S128x64_1_0_0_1_n_n rfl rfl rfl rfl rfl rfl
    none _ _ i d).trans ?_
  unfold Attn.proj
  refine Finset.sum_congr rfl fun c _ => ?_
  show k0_pay6 (F := Ideal) v6 (ix2 i c) * wk (ix2 c d) = _
  rw [tile_apply, hv6]

/-- The tile's logits: its key projection times the transposed query projection. -/
def tileLogits (v6 : Vec Ideal S1x128x512 .f32) (wk : Vec Ideal S512x64 .f32) (qT : Vec Ideal S64x4096 .bf16) :
    FVec Ideal S128x4096 .f32 :=
  matmul (φ₂ := .bf16) dot_S128x64_S64x4096_S128x4096_1_0_0_1_n_n none
    (truncf .bf16 (tileKeys v6 wk) bitsLt_bf16_f32) qT (constant S128x4096 .f32 0x00000000#32)

/-- Entry (i, n) of the tile's logits is ∑ d, k d · q d for the key token of row i and the query token n: the
    specification's logit of query n against that key, whose factors stand in the other order. -/
theorem tileLogits_apply (xb : Attn.Slab) (wq wk : Attn.Wt) (j : Fin 32) (v6 : Vec Ideal S1x128x512 .f32)
    (hv6 : ∀ (i : Fin 128) (c : Fin 512), v6 (ix3 0 i c) = xb (row j i) c)
    (qT : Vec Ideal S64x4096 .bf16) (hq : ∀ d n, qT (ix2 d n) = Attn.proj wq (xb n) d)
    (i : Fin 128) (n : Fin 4096) :
    tileLogits v6 wk qT (ix2 i n) = Attn.logit wq wk xb n (row j i) := by
  unfold tileLogits
  refine (PlainMatmul.matmul_zero_apply (φ₂ := .bf16) dot_S128x64_S64x4096_S128x4096_1_0_0_1_n_n
    rfl rfl rfl rfl rfl rfl none _ _ i n).trans ?_
  unfold Attn.logit
  refine Finset.sum_congr rfl fun d _ => ?_
  show tileKeys v6 wk (ix2 i d) * qT (ix2 d n) = _
  rw [tileKeys_apply xb wk j v6 hv6, hq]
  exact mul_comm _ _

/-! ## A softmax along the rows of a 128 × 4096 array, read at an index -/

/-- The index of a row reduction's result with the reduced coordinate put back is the pair of coordinates. -/
theorem lift_row (i : Fin 128) (m : Fin 4096) : reduces_S128x4096_S128.lift (ix1 i) m = ix2 i m := by
  funext c
  match c with
  | ⟨0, _⟩ => rfl
  | ⟨1, _⟩ => rfl

/-- Each row's maximum, folded from −∞ and taken once more against −∞, kept as a column and spread along the row. -/
def rowMax (L : FVec Ideal S128x4096 .f32) : FVec Ideal S128x4096 .f32 :=
  broadcastTo S128x4096
    (shapeCast S128x1
      (maximumf (broadcast S128 (Scalar.ofBits (F := Ideal) .f32 0xFF800000#32))
        (multiReduction .maximumf [1] S128 L 0xFF800000#32 reduces_S128x4096_S128 (.inl rfl) rfl))
      shapeCasts_S128_S128x1)
    broadcasts_S128x1_S128x4096

theorem rowMax_apply (L : FVec Ideal S128x4096 .f32) (i : Fin 128) (n : Fin 4096) :
    rowMax L (ix2 i n)
      = max Attn.negInf (Finset.fold max Attn.negInf (fun m : Fin 4096 => L (ix2 i m)) Finset.univ) := by
  unfold rowMax
  refine (KeptColumn.broadcastTo_a1_ab_apply _ broadcasts_S128x1_S128x4096 i n).trans ?_
  refine (KeptColumn.shapeCast_a_a1_apply _ shapeCasts_S128_S128x1 i 0).trans ?_
  refine (maximumf_apply _ _ _).trans ?_
  refine congrArg (max Attn.negInf) ?_
  refine (Ideal.multiReduction_maximumf_single L _ reduces_S128x4096_S128 (.inl rfl) rfl (ix1 i)).trans ?_
  refine congrArg (fun f => Finset.fold max Attn.negInf f (Finset.univ : Finset (Fin 4096))) ?_
  funext m
  exact congrArg L (lift_row i m)

/-- The exponential of each entry less its row's maximum. -/
def rowExp (L : FVec Ideal S128x4096 .f32) : FVec Ideal S128x4096 .f32 := exp (subf L (rowMax L))

theorem rowExp_apply (L : FVec Ideal S128x4096 .f32) (i : Fin 128) (n : Fin 4096) :
    rowExp L (ix2 i n)
      = Ideal.exp (L (ix2 i n)
          - max Attn.negInf (Finset.fold max Attn.negInf (fun m : Fin 4096 => L (ix2 i m)) Finset.univ)) := by
  show Ideal.exp (L (ix2 i n) - rowMax L (ix2 i n)) = _
  rw [rowMax_apply]

/-- Each row's sum, kept as a column and spread along the row. -/
def rowSum (E : FVec Ideal S128x4096 .f32) : FVec Ideal S128x4096 .f32 :=
  broadcastTo S128x4096
    (shapeCast S128x1
      (multiReduction .add [1] S128 E 0x00000000#32 reduces_S128x4096_S128 (.inl rfl) rfl)
      shapeCasts_S128_S128x1)
    broadcasts_S128x1_S128x4096

theorem rowSum_apply (E : FVec Ideal S128x4096 .f32) (i : Fin 128) (n : Fin 4096) :
    rowSum E (ix2 i n) = ∑ m : Fin 4096, E (ix2 i m) := by
  unfold rowSum
  refine (KeptColumn.broadcastTo_a1_ab_apply _ broadcasts_S128x1_S128x4096 i n).trans ?_
  refine (KeptColumn.shapeCast_a_a1_apply _ shapeCasts_S128_S128x1 i 0).trans ?_
  refine (Ideal.multiReduction_add_single E _ reduces_S128x4096_S128 (.inl rfl) rfl (ix1 i)).trans ?_
  refine Finset.sum_congr rfl fun m _ => ?_
  exact congrArg E (lift_row i m)

/-- The row softmax: each exponential divided by its row's sum of exponentials. -/
def rowSoftmax (L : FVec Ideal S128x4096 .f32) : FVec Ideal S128x4096 .f32 :=
  divf (rowExp L) (rowSum (rowExp L))

/-- The body's attention weights are the row softmax of the tile's logits: the two spell the same operations. -/
theorem pay7_eq (v6 : Vec Ideal S1x128x512 .f32) (wk : Vec Ideal S512x64 .f32) (qT : Vec Ideal S64x4096 .bf16) :
    k0_pay7 (F := Ideal) v6 wk qT = rowSoftmax (tileLogits v6 wk qT) := rfl

/-- The row softmax of an array whose entry (i, n) is the logit of query n against key 128·j + i is, at (i, n), the
    attention weight of query n in that key's column. -/
theorem rowSoftmax_apply (xb : Attn.Slab) (wq wk : Attn.Wt) (j : Fin 32) (L : FVec Ideal S128x4096 .f32)
    (hL : ∀ (i : Fin 128) (n : Fin 4096), L (ix2 i n) = Attn.logit wq wk xb n (row j i))
    (i : Fin 128) (n : Fin 4096) :
    rowSoftmax L (ix2 i n) = Attn.att wq wk xb n (row j i) := by
  have hmax : ∀ i : Fin 128,
      max Attn.negInf (Finset.fold max Attn.negInf (fun m : Fin 4096 => L (ix2 i m)) Finset.univ)
        = Attn.colMax wq wk xb (row j i) := by
    intro i
    unfold Attn.colMax
    refine congrArg (max Attn.negInf)
      (congrArg (fun f => Finset.fold max Attn.negInf f (Finset.univ : Finset (Fin 4096))) ?_)
    funext m
    exact hL i m
  have hexp : ∀ (i : Fin 128) (n : Fin 4096), rowExp L (ix2 i n) = Attn.expo wq wk xb n (row j i) := by
    intro i n
    rw [rowExp_apply, hmax, hL]
    rfl
  unfold rowSoftmax
  refine (divf_apply _ _ _).trans ?_
  rw [hexp, rowSum_apply]
  unfold Attn.att Attn.colSum
  exact congrArg (Ideal.div _) (Finset.sum_congr rfl fun m _ => hexp i m)

/-- The body's attention weight at (i, n): the weight of query n in the column of key 128·j + i. -/
theorem att_apply (xb : Attn.Slab) (wq wk : Attn.Wt) (j : Fin 32) (v6 : Vec Ideal S1x128x512 .f32)
    (hv6 : ∀ (i : Fin 128) (c : Fin 512), v6 (ix3 0 i c) = xb (row j i) c)
    (qT : Vec Ideal S64x4096 .bf16) (hq : ∀ d n, qT (ix2 d n) = Attn.proj wq (xb n) d)
    (i : Fin 128) (n : Fin 4096) :
    k0_pay7 (F := Ideal) v6 wk qT (ix2 i n) = Attn.att wq wk xb n (row j i) := by
  rw [pay7_eq]
  exact rowSoftmax_apply xb wq wk j _ (tileLogits_apply xb wq wk j v6 hv6 qT hq) i n

/-! ## The mixture, its projection, and the stored result -/

/-- The tile's mixed values: its attention weights times the value projection. -/
def tileMix (v6 : Vec Ideal S1x128x512 .f32) (wk : Vec Ideal S512x64 .f32) (qT : Vec Ideal S64x4096 .bf16)
    (vv : Vec Ideal S4096x64 .bf16) : FVec Ideal S128x64 .f32 :=
  matmul (φ₂ := .bf16) dot_S128x4096_S4096x64_S128x64_1_0_0_1_n_n none
    (truncf .bf16 (k0_pay7 v6 wk qT) bitsLt_bf16_f32) vv (constant S128x64 .f32 0x00000000#32)

/-- Entry (i, d) of the tile's mixed values: the values mixed down the column of key 128·j + i. -/
theorem tileMix_apply (xb : Attn.Slab) (wq wk wv : Attn.Wt) (j : Fin 32) (v6 : Vec Ideal S1x128x512 .f32)
    (hv6 : ∀ (i : Fin 128) (c : Fin 512), v6 (ix3 0 i c) = xb (row j i) c)
    (qT : Vec Ideal S64x4096 .bf16) (hq : ∀ d n, qT (ix2 d n) = Attn.proj wq (xb n) d)
    (vv : Vec Ideal S4096x64 .bf16) (hv : ∀ n d, vv (ix2 n d) = Attn.proj wv (xb n) d)
    (i : Fin 128) (d : Fin 64) :
    tileMix v6 wk qT vv (ix2 i d) = Attn.mix wq wk wv xb (row j i) d := by
  unfold tileMix
  refine (PlainMatmul.matmul_zero_apply (φ₂ := .bf16) dot_S128x4096_S4096x64_S128x64_1_0_0_1_n_n
    rfl rfl rfl rfl rfl rfl none _ _ i d).trans ?_
  unfold Attn.mix
  refine Finset.sum_congr rfl fun n _ => ?_
  show k0_pay7 (F := Ideal) v6 wk qT (ix2 i n) * vv (ix2 n d) = _
  rw [att_apply xb wq wk j v6 hv6 qT hq, hv]

/-- The body's projected mixture is the mixed values times the 64→512 output matrix: the two spell the same
    operations. -/
theorem pay8_eq (v6 : Vec Ideal S1x128x512 .f32) (wk : Vec Ideal S512x64 .f32) (qT : Vec Ideal S64x4096 .bf16)
    (vv : Vec Ideal S4096x64 .bf16) (wo : Vec Ideal S64x512 .f32) :
    k0_pay8 (F := Ideal) v6 wk qT vv wo
      = matmul dot_S128x64_S64x512_S128x512_1_0_0_1_n_n none (truncf .bf16 (tileMix v6 wk qT vv) bitsLt_bf16_f32)
          (truncf .bf16 wo bitsLt_bf16_f32) (constant S128x512 .f32 0x00000000#32) := rfl

/-- The projected mixture at (i, c): the mixture of key 128·j + i through the output matrix. -/
theorem proj_apply (xb : Attn.Slab) (wq wk wv : Attn.Wt) (wo : Attn.Wo) (j : Fin 32)
    (v6 : Vec Ideal S1x128x512 .f32) (hv6 : ∀ (i : Fin 128) (c : Fin 512), v6 (ix3 0 i c) = xb (row j i) c)
    (qT : Vec Ideal S64x4096 .bf16) (hq : ∀ d n, qT (ix2 d n) = Attn.proj wq (xb n) d)
    (vv : Vec Ideal S4096x64 .bf16) (hv : ∀ n d, vv (ix2 n d) = Attn.proj wv (xb n) d)
    (i : Fin 128) (c : Fin 512) :
    k0_pay8 (F := Ideal) v6 wk qT vv wo (ix2 i c)
      = ∑ d : Fin 64, Attn.mix wq wk wv xb (row j i) d * wo (ix2 d c) := by
  rw [pay8_eq]
  refine (PlainMatmul.matmul_zero_apply dot_S128x64_S64x512_S128x512_1_0_0_1_n_n rfl rfl rfl rfl rfl rfl
    none _ _ i c).trans ?_
  refine Finset.sum_congr rfl fun d _ => ?_
  show tileMix v6 wk qT vv (ix2 i d) * wo (ix2 d c) = _
  rw [tileMix_apply xb wq wk wv j v6 hv6 qT hq vv hv]

/-- The scale vector's one entry spread over the tile. -/
theorem scale_apply (g : Vec Ideal S1 .f32) (i : Fin 128) (c : Fin 512) :
    k0_pay9 (F := Ideal) g (ix2 i c) = g (ix1 0) := by
  unfold k0_pay9
  show g (fun a => ⟨(![0] : Fin 1 → Nat) a, inpos_S1_p0 a⟩) = g (ix1 0)
  refine congrArg g (funext fun a => ?_)
  match a with
  | ⟨0, _⟩ => rfl

/-- The stored result at (0, i, c): the token of row i of the tile plus its projected mixture scaled by the one
    entry of the scale vector. -/
theorem out_apply (xb : Attn.Slab) (wq wk wv : Attn.Wt) (wo : Attn.Wo) (j : Fin 32)
    (v6 : Vec Ideal S1x128x512 .f32) (hv6 : ∀ (i : Fin 128) (c : Fin 512), v6 (ix3 0 i c) = xb (row j i) c)
    (qT : Vec Ideal S64x4096 .bf16) (hq : ∀ d n, qT (ix2 d n) = Attn.proj wq (xb n) d)
    (vv : Vec Ideal S4096x64 .bf16) (hv : ∀ n d, vv (ix2 n d) = Attn.proj wv (xb n) d)
    (g : Vec Ideal S1 .f32) (i : Fin 128) (c : Fin 512) :
    k0_pay1 (F := Ideal) (k0_pay6 v6) (k0_pay8 v6 wk qT vv wo) (k0_pay9 g) (ix3 0 i c)
      = Attn.res wq wk wv wo (g (ix1 0)) xb (row j i) c := by
  unfold k0_pay1
  refine (shapeCast_ab_1ab_apply _ shapeCasts_S128x512_S1x128x512 0 i c).trans ?_
  show k0_pay6 (F := Ideal) v6 (ix2 i c)
      + k0_pay8 (F := Ideal) v6 wk qT vv wo (ix2 i c) * k0_pay9 (F := Ideal) g (ix2 i c) = _
  rw [tile_apply, hv6, proj_apply xb wq wk wv wo j v6 hv6 qT hq vv hv, scale_apply]
  rfl

end Cert.KernelIdeal.BodyValue

end
-- ==== Proof.Arrays.lean ====
/-
  The two result arrays after the run, at the ideal values.

  A point's result block, read at (row, channel), is the specification's result at (batch, 128·tile + row, channel):
  the tile's rows are the batch's slab rows `128·tile + row`, the kept buffers are the batch's query and value
  projections, and the body's arithmetic on them is the specification's.  Its attention block, read at (query, row),
  is the specification's attention at (batch, query, 128·tile + row): the body normalises each key's row over the
  queries and stores the transpose.  The result window's block of point `t` sits at (batch, tile, 0) and the
  attention window's at (batch, 0, tile), so what each point writes back is a block of ONE whole-array function;
  the 128 blocks cover each array (row `q` of batch `b` lies in tile `q / 128`), so after the run each array is that
  function of the argument arrays.
-/
import proofs.«122561_j13855564497213_1_alg».proof.Proof.Points
import proofs.«122561_j13855564497213_1_alg».proof.Proof.BodyValues

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Found Cert.KernelIdeal.Points

variable (m : (ℓ : Loc nD τ sig) → Buf (Elt Ideal) ℓ) (ρ : Dev nD → PrngReg)

open Cert.KernelIdeal.BodyValue (row)

/-- The tile's row `r` is the slab's row `128·tile + r`. -/
theorem tile_apply (c : Dev nD) (t : Fin cfg0.N) (r : Fin 128) (cc : Fin 512) :
    (tileAt m c t) (ix3 (0 : Fin 1) r cc) = Attn.slab (m ((c : Thread nD τ).loc main_arg0)) (bat t) (row (til t) r) cc := by
  obtain ⟨-, -, -, -, -, -, -, -, -, -, -, -, -, -, -, -, -, -, eg⟩ := idx_facts t
  show slabOf m c (bat t) ((Rect.unit (s := S1x4096x512) (k0_off1 (grid0.coords t)) S1x128x512.size (k0_off1_inb _)).idx (ix3 (0 : Fin 1) r cc)) = m ((c : Thread nD τ).loc main_arg0) (ix3 (bat t) (row (til t) r) cc)
  unfold slabOf
  congr 1
  funext a
  apply Fin.ext
  match a with
  | ⟨0, _⟩ => rfl
  | ⟨1, _⟩ =>
    show (k0_off1 (grid0.coords t)) 1 + 1 * r.val = 128 * (t.val % 32) + r.val
    rw [k0_off1_eq]
    show 128 * ((grid0.coords t) 1).val + 1 * r.val = _
    rw [eg]; omega
  | ⟨2, _⟩ =>
    show (k0_off1 (grid0.coords t)) 2 + 1 * cc.val = cc.val
    rw [k0_off1_eq]
    show 0 + 1 * cc.val = cc.val
    omega

/-- A batch's slab block read at a token and a channel. -/
theorem slabOf_apply (c : Dev nD) (b : Fin 4) (n : Fin 4096) (cc : Fin 512) :
    slabOf m c b (ix3 (0 : Fin 1) n cc) = Attn.slab (m ((c : Thread nD τ).loc main_arg0)) b n cc := rfl

/-- The kept query projection of a batch, at a feature and a token. -/
theorem keptQ_apply (c : Dev nD) (b : Fin 4) (d : Fin 64) (n : Fin 4096) :
    keptQ m c b (ix2 d n) = Attn.proj (m ((c : Thread nD τ).loc main_arg1)) (Attn.slab (m ((c : Thread nD τ).loc main_arg0)) b n) d :=
  BodyValue.qT_apply (Attn.slab (m ((c : Thread nD τ).loc main_arg0)) b) (m ((c : Thread nD τ).loc main_arg1)) (slabOf m c b)
    (fun n cc => slabOf_apply m c b n cc) d n

/-- The kept value projection of a batch, at a token and a feature. -/
theorem keptV_apply (c : Dev nD) (b : Fin 4) (n : Fin 4096) (d : Fin 64) :
    keptV m c b (ix2 n d) = Attn.proj (m ((c : Thread nD τ).loc main_arg3)) (Attn.slab (m ((c : Thread nD τ).loc main_arg0)) b n) d :=
  BodyValue.v_apply (Attn.slab (m ((c : Thread nD τ).loc main_arg0)) b) (m ((c : Thread nD τ).loc main_arg3)) (slabOf m c b)
    (fun n cc => slabOf_apply m c b n cc) n d

/-- The result array as the specification states it, of the argument arrays as launched. -/
abbrev resArr (c : Dev nD) : Attn.Arr :=
  Attn.resOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The attention array as the specification states it, of the argument arrays as launched. -/
abbrev attnArr (c : Dev nD) : (⟨3, ![4, 4096, 4096]⟩ : Shape).Idx → EReal :=
  Attn.attnOut (m ((c : Thread nD τ).loc main_arg0)) (m ((c : Thread nD τ).loc main_arg1)) (m ((c : Thread nD τ).loc main_arg2))

/-- The result block a point writes is the specification's result at (batch, 128·tile + row, channel). -/
theorem resBlk_apply (c : Dev nD) (t : Fin cfg0.N) (r : Fin 128) (cc : Fin 512) :
    resBlk m c t (ix3 (0 : Fin 1) r cc) = resArr m c (ix3 (bat t) (row (til t) r) cc) :=
  BodyValue.out_apply (Attn.slab (m ((c : Thread nD τ).loc main_arg0)) (bat t)) (m ((c : Thread nD τ).loc main_arg1))
    (m ((c : Thread nD τ).loc main_arg2)) (m ((c : Thread nD τ).loc main_arg3)) (m ((c : Thread nD τ).loc main_arg4)) (til t)
    (tileAt m c t) (fun i cc => tile_apply m c t i cc)
    (keptQ m c (bat t)) (fun d n => keptQ_apply m c (bat t) d n)
    (keptV m c (bat t)) (fun n d => keptV_apply m c (bat t) n d)
    (m ((c : Thread nD τ).loc main_arg5)) r cc

/-- The attention block a point writes is the specification's attention at (batch, query, 128·tile + row). -/
theorem attnBlk_apply (c : Dev nD) (t : Fin cfg0.N) (n : Fin 4096) (r : Fin 128) :
    attnBlk m c t (ix3 (0 : Fin 1) n r) = attnArr m c (ix3 (bat t) n (row (til t) r)) :=
  (BodyValue.attT_apply _ n r).trans
    (BodyValue.att_apply (Attn.slab (m ((c : Thread nD τ).loc main_arg0)) (bat t)) (m ((c : Thread nD τ).loc main_arg1))
      (m ((c : Thread nD τ).loc main_arg2)) (til t) (tileAt m c t) (fun i cc => tile_apply m c t i cc)
      (keptQ m c (bat t)) (fun d n => keptQ_apply m c (bat t) d n) r n)

/-! ## From blocks to arrays -/

/-- Where the result window's block puts its (row, channel): batch, 128·tile + row, channel. -/
theorem emb6 (t : Fin cfg0.N) (r : Fin 128) (cc : Fin 512) :
    ((cfg0.win 6).blk t).view.emb (ix3 (0 : Fin 1) r cc) = ix3 (bat t) (row (til t) r) cc := by
  obtain ⟨-, -, -, -, -, -, -, -, -, -, -, -, e0, e1, e2, -⟩ := idx_facts t
  funext a
  apply Fin.ext
  match a with
  | ⟨0, _⟩ => show win0_6.index t (0 : Fin 3) * 1 + 1 * 0 = t.val / 32; omega
  | ⟨1, _⟩ => show win0_6.index t (1 : Fin 3) * 128 + 1 * r.val = 128 * (t.val % 32) + r.val; omega
  | ⟨2, _⟩ => show win0_6.index t (2 : Fin 3) * 512 + 1 * cc.val = cc.val; omega

/-- Where the attention window's block puts its (query, row): batch, query, 128·tile + row. -/
theorem emb7 (t : Fin cfg0.N) (n : Fin 4096) (r : Fin 128) :
    ((cfg0.win 7).blk t).view.emb (ix3 (0 : Fin 1) n r) = ix3 (bat t) n (row (til t) r) := by
  obtain ⟨-, -, -, -, -, -, -, -, -, -, -, -, -, -, -, e0, e1, e2, -⟩ := idx_facts t
  funext a
  apply Fin.ext
  match a with
  | ⟨0, _⟩ => show win0_7.index t (0 : Fin 3) * 1 + 1 * 0 = t.val / 32; omega
  | ⟨1, _⟩ => show win0_7.index t (1 : Fin 3) * 4096 + 1 * n.val = n.val; omega
  | ⟨2, _⟩ => show win0_7.index t (2 : Fin 3) * 128 + 1 * r.val = 128 * (t.val % 32) + r.val; omega

/-- What point `t` writes back to the result array is block `t` of the specification's result. -/
theorem flushed6_eq (c : Dev nD) (t : Fin cfg0.N) :
    (dats m 0 c).flushed 6 t = ((cfg0.win 6).blk t).view.read (Elt Ideal) (resArr m c) := by
  rw [Value.flushed6, outs_eq m c t.val t.isLt]
  funext j
  obtain ⟨u, r, cc, rfl⟩ : ∃ (u : Fin 1) (r : Fin 128) (cc : Fin 512), j = ix3 u r cc := ⟨j 0, j 1, j 2, eq_ix3 j⟩
  obtain rfl : u = 0 := Subsingleton.elim _ _
  show resBlk m c t (ix3 (0 : Fin 1) r cc) = resArr m c (((cfg0.win 6).blk t).view.emb (ix3 (0 : Fin 1) r cc))
  rw [emb6, resBlk_apply]

/-- What point `t` writes back to the attention array is block `t` of the specification's attention. -/
theorem flushed7_eq (c : Dev nD) (t : Fin cfg0.N) :
    (dats m 0 c).flushed 7 t = ((cfg0.win 7).blk t).view.read (Elt Ideal) (attnArr m c) := by
  rw [Value.flushed7, outs_eq m c t.val t.isLt]
  funext j
  obtain ⟨u, n, r, rfl⟩ : ∃ (u : Fin 1) (n : Fin 4096) (r : Fin 128), j = ix3 u n r := ⟨j 0, j 1, j 2, eq_ix3 j⟩
  obtain rfl : u = 0 := Subsingleton.elim _ _
  show attnBlk m c t (ix3 (0 : Fin 1) n r) = attnArr m c (((cfg0.win 7).blk t).view.emb (ix3 (0 : Fin 1) n r))
  rw [emb7, attnBlk_apply]

/-- The point whose blocks hold row `q` of batch `b` (for the result) or key `q` of batch `b` (for the attention):
    tile `q / 128` of the batch. -/
def pointOf (b : Fin 4) (q : Fin 4096) : Fin cfg0.N :=
  ⟨32 * b.val + q.val / 128, by rw [show cfg0.N = 128 from N_0]; have := b.isLt; have := q.isLt; omega⟩

/-- Every index of the result array lies in the block of the point of its batch and its row's tile. -/
theorem cover6 (i : S4x4096x512.Idx) :
    ∃ t : Fin cfg0.N, (cfg0.win 6).flush t = true ∧ i ∈ ((cfg0.win 6).blk t).view.set := by
  obtain ⟨b, q, cc, rfl⟩ : ∃ (b : Fin 4) (q : Fin 4096) (cc : Fin 512), i = ix3 b q cc := ⟨i 0, i 1, i 2, eq_ix3 i⟩
  refine ⟨pointOf b q, flush0_6 _, ?_⟩
  obtain ⟨-, -, -, -, -, -, -, -, -, -, -, -, e0, e1, e2, -⟩ := idx_facts (pointOf b q)
  have hv : (pointOf b q).val = 32 * b.val + q.val / 128 := rfl
  have hb := b.isLt
  have hq := q.isLt
  have hc := cc.isLt
  show ix3 b q cc ∈ ((View.whole main_v0_0).slice (win0_6.rect (pointOf b q))).set
  rw [View.set_slice_whole, Rect.mem_set_unit]
  intro a
  match a with
  | ⟨0, _⟩ =>
    show win0_6.index (pointOf b q) (0 : Fin 3) * 1 ≤ b.val ∧ b.val < win0_6.index (pointOf b q) (0 : Fin 3) * 1 + 1
    omega
  | ⟨1, _⟩ =>
    show win0_6.index (pointOf b q) (1 : Fin 3) * 128 ≤ q.val ∧ q.val < win0_6.index (pointOf b q) (1 : Fin 3) * 128 + 128
    omega
  | ⟨2, _⟩ =>
    show win0_6.index (pointOf b q) (2 : Fin 3) * 512 ≤ cc.val ∧ cc.val < win0_6.index (pointOf b q) (2 : Fin 3) * 512 + 512
    omega

/-- Every index of the attention array lies in the block of the point of its batch and its key's tile. -/
theorem cover7 (i : S4x4096x4096.Idx) :
    ∃ t : Fin cfg0.N, (cfg0.win 7).flush t = true ∧ i ∈ ((cfg0.win 7).blk t).view.set := by
  obtain ⟨b, n, q, rfl⟩ : ∃ (b : Fin 4) (n : Fin 4096) (q : Fin 4096), i = ix3 b n q := ⟨i 0, i 1, i 2, eq_ix3 i⟩
  refine ⟨pointOf b q, flush0_7 _, ?_⟩
  obtain ⟨-, -, -, -, -, -, -, -, -, -, -, -, -, -, -, e0, e1, e2, -⟩ := idx_facts (pointOf b q)
  have hv : (pointOf b q).val = 32 * b.val + q.val / 128 := rfl
  have hb := b.isLt
  have hq := q.isLt
  have hn := n.isLt
  show ix3 b n q ∈ ((View.whole main_v0_1).slice (win0_7.rect (pointOf b q))).set
  rw [View.set_slice_whole, Rect.mem_set_unit]
  intro a
  match a with
  | ⟨0, _⟩ =>
    show win0_7.index (pointOf b q) (0 : Fin 3) * 1 ≤ b.val ∧ b.val < win0_7.index (pointOf b q) (0 : Fin 3) * 1 + 1
    omega
  | ⟨1, _⟩ =>
    show win0_7.index (pointOf b q) (1 : Fin 3) * 4096 ≤ n.val ∧ n.val < win0_7.index (pointOf b q) (1 : Fin 3) * 4096 + 4096
    omega
  | ⟨2, _⟩ =>
    show win0_7.index (pointOf b q) (2 : Fin 3) * 128 ≤ q.val ∧ q.val < win0_7.index (pointOf b q) (2 : Fin 3) * 128 + 128
    omega

/-- After the run the result array is the specification's result of the argument arrays. -/
theorem final6 (c : Dev nD) : (dats m 0 c).arrAt 6 cfg0.N = resArr m c :=
  (dats m 0 c).arrAt_eq_of_cover 6 (resArr m c) (fun t _ => flushed6_eq m c t) (cover6)

/-- After the run the attention array is the specification's attention of the argument arrays. -/
theorem final7 (c : Dev nD) : (dats m 0 c).arrAt 7 cfg0.N = attnArr m c :=
  (dats m 0 c).arrAt_eq_of_cover 7 (attnArr m c) (fun t _ => flushed7_eq m c t) (cover7)

/-- The kernel's run: every weakly fair execution ends with the two result arrays at the specification's functions of
    the argument arrays, and the arguments unchanged. -/
theorem run : θ_run defs (onTc (τ := τ) (main (F := Ideal))) ⟨m, fun _ => 0, ρ⟩ fun r => ∀ c : Dev nD,
      r.2.mem ((c : Thread nD τ).loc main_v0_0) = resArr m c
      ∧ r.2.mem ((c : Thread nD τ).loc main_v0_1) = attnArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.Arrays

end
-- ==== Proof.RefAttention.lean ====
/-
  The reference program computes the specification's attention, stage by stage.

  Each stage of the reference is read at an index given by its coordinates and identified with the
  specification's quantity of the same coordinates.  The three 512→64 contractions are the projections
  of a token, ∑ c, x (b, n, c) · W (c, d).  The batched contraction of the queries against the keys over
  the feature axis is the logit of query n against key m.  The maximum taken over the query axis from the word
  of −∞, followed by one more maximum against that word, is the column maximum of key m; it is spread back over
  the query axis, subtracted and exponentiated, which gives the exponential of a logit less its column's
  maximum.  The sum over the query axis, started from the constant 0, is the column's sum of exponentials,
  and the quotient of the two is the attention weight.  The contraction of the weights against the values over
  the query axis is the mixture; one more 64→512 contraction, a product with the single scale and a sum
  with the token give the result.  Only the reading of each sum at its coordinates is used: no law of the
  extended reals beyond 0 + a = a.
-/
import proofs.«122561_j13855564497213_1_alg».proof.Proof.Gen.ReferenceIdeal.Read
import proofs.«122561_j13855564497213_1_alg».proof.Proof.Softmax
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The input array, the projection matrices, the output matrix and the scale, as the reference takes them. -/
abbrev XTy : Type := (⟨S4x4096x512, .f32⟩ : BufTy).Contents (Elt Ideal)
abbrev WTy : Type := (⟨S512x64, .f32⟩ : BufTy).Contents (Elt Ideal)
abbrev WoTy : Type := (⟨S64x512, .f32⟩ : BufTy).Contents (Elt Ideal)
abbrev GTy : Type := (⟨S1, .f32⟩ : BufTy).Contents (Elt Ideal)

/-! ## The projections -/

/-- The first contraction at (b, n, d) is feature d of token (b, n)'s projection. -/
theorem v0_at (x : XTy) (w : WTy) (b : Fin 4) (n : Fin 4096) (d : Fin 64) :
    val_main_v0 (F := Ideal) x w (ix3 b n d) = Attn.proj w (Attn.slab x b n) d := by
  rw [val_main_v0_apply]
  unfold Attn.proj Attn.slab
  refine Finset.sum_congr rfl fun c _ => ?_
  have e1 : lidx_main_v0 (ix3 b n d) c = ix3 b n c :=
    funext fun a => Fin.ext (by match a with | ⟨0, _⟩ => rfl | ⟨1, _⟩ => rfl | ⟨2, _⟩ => rfl)
  have e2 : ridx_main_v0 (ix3 b n d) c = ix2 c d :=
    funext fun a => Fin.ext (by match a with | ⟨0, _⟩ => rfl | ⟨1, _⟩ => rfl)
  rw [e1, e2]

theorem v1_at (x : XTy) (w : WTy) (b : Fin 4) (n : Fin 4096) (d : Fin 64) :
    val_main_v1 (F := Ideal) x w (ix3 b n d) = Attn.proj w (Attn.slab x b n) d := by
  rw [val_main_v1_apply]
  unfold Attn.proj Attn.slab
  refine Finset.sum_congr rfl fun c _ => ?_
  have e1 : lidx_main_v1 (ix3 b n d) c = ix3 b n c :=
    funext fun a => Fin.ext (by match a with | ⟨0, _⟩ => rfl | ⟨1, _⟩ => rfl | ⟨2, _⟩ => rfl)
  have e2 : ridx_main_v1 (ix3 b n d) c = ix2 c d :=
    funext fun a => Fin.ext (by match a with | ⟨0, _⟩ => rfl | ⟨1, _⟩ => rfl)
  rw [e1, e2]

theorem v2_at (x : XTy) (w : WTy) (b : Fin 4) (n : Fin 4096) (d : Fin 64) :
    val_main_v2 (F := Ideal) x w (ix3 b n d) = Attn.proj w (Attn.slab x b n) d := by
  rw [val_main_v2_apply]
  unfold Attn.proj Attn.slab
  refine Finset.sum_congr rfl fun c _ => ?_
  have e1 : lidx_main_v2 (ix3 b n d) c = ix3 b n c :=
    funext fun a => Fin.ext (by match a with | ⟨0, _⟩ => rfl | ⟨1, _⟩ => rfl | ⟨2, _⟩ => rfl)
  have e2 : ridx_main_v2 (ix3 b n d) c = ix2 c d :=
    funext fun a => Fin.ext (by match a with | ⟨0, _⟩ => rfl | ⟨1, _⟩ => rfl)
  rw [e1, e2]

/-! ## The logits -/

/-- The batched contraction at (b, n, m) is the logit of query n against key m in batch b. -/
theorem v3_at (x : XTy) (wq wk : WTy) (b : Fin 4) (n m : Fin 4096) :
    val_main_v3 (F := Ideal) x wq wk (ix3 b n m) = Attn.logit wq wk (Attn.slab x b) n m := by
  rw [val_main_v3_apply]
  unfold Attn.logit
  refine Finset.sum_congr rfl fun d _ => ?_
  have e1 : lidx_main_v3 (ix3 b n m) d = ix3 b n d :=
    funext fun a => Fin.ext (by match a with | ⟨0, _⟩ => rfl | ⟨1, _⟩ => rfl | ⟨2, _⟩ => rfl)
  have e2 : ridx_main_v3 (ix3 b n m) d = ix3 b m d :=
    funext fun a => Fin.ext (by match a with | ⟨0, _⟩ => rfl | ⟨1, _⟩ => rfl | ⟨2, _⟩ => rfl)
  rw [e1, e2, v0_at, v1_at]

/-! ## The column maximum -/

/-- The source index of the reduction over the query axis: the result index (b, m) with the query
    coordinate n put back on axis 1. -/
theorem lift_at (h : S4x4096x4096.Reduces [1] S4x4096) (b : Fin 4) (m n : Fin 4096) :
    h.lift (ix2 b m) n = ix3 b n m :=
  funext fun a => Fin.ext (by match a with | ⟨0, _⟩ => rfl | ⟨1, _⟩ => rfl | ⟨2, _⟩ => rfl)

/-- The maximum over the query axis at (b, m): the fold of max from the word of −∞ over key m's column of logits. -/
theorem v4_at (x : XTy) (wq wk : WTy) (b : Fin 4) (m : Fin 4096) :
    val_main_v4 (F := Ideal) x wq wk (ix2 b m)
      = (Finset.univ : Finset (Fin 4096)).fold max Attn.negInf (fun n => Attn.logit wq wk (Attn.slab x b) n m) := by
  unfold val_main_v4
  have h : S4x4096x4096.Reduces [1] S4x4096 := by decide
  refine (Host.reduce_eq_fold_single FloatOps.maximumf _ _ reducesTo_S4x4096x4096_S4x4096_d1 h h_S_ (ix2 b m)).trans ?_
  have e : (val_main_v3 (F := Ideal) x wq wk ∘ h.lift (ix2 b m))
      = fun n : Fin 4096 => Attn.logit wq wk (Attn.slab x b) n m := by
    exact funext fun n : Fin 4096 =>
      (congrArg (val_main_v3 (F := Ideal) x wq wk) (lift_at h b m n)).trans (v3_at x wq wk b n m)
  rw [e]
  rfl

/-- One more maximum against the word of −∞: the column maximum of the specification. -/
theorem v6_at (x : XTy) (wq wk : WTy) (b : Fin 4) (m : Fin 4096) :
    val_main_v6 (F := Ideal) x wq wk (ix2 b m) = Attn.colMax wq wk (Attn.slab x b) m := by
  rw [val_main_v6_apply, v4_at, val_main_v5_apply, val_main_cst_0_apply]
  rfl

/-- Spread back over the query axis, the column maximum does not depend on the query. -/
theorem v8_at (x : XTy) (wq wk : WTy) (b : Fin 4) (n m : Fin 4096) :
    val_main_v8 (F := Ideal) x wq wk (ix3 b n m) = Attn.colMax wq wk (Attn.slab x b) m := by
  rw [val_main_v8_apply, val_main_v7_apply]
  have e : idx_main_v7 (idx_main_v8 (ix3 b n m)) = ix2 b m :=
    funext fun a => Fin.ext (by match a with | ⟨0, _⟩ => rfl | ⟨1, _⟩ => rfl)
  rw [e, v6_at]

/-! ## The exponentials, their column sums and the weights -/

/-- The exponential of the logit less its column's maximum. -/
theorem v10_at (x : XTy) (wq wk : WTy) (b : Fin 4) (n m : Fin 4096) :
    val_main_v10 (F := Ideal) x wq wk (ix3 b n m) = Attn.expo wq wk (Attn.slab x b) n m := by
  rw [val_main_v10_apply, val_main_v9_apply, v3_at, v8_at]
  rfl

/-- The sum over the query axis, started from 0, is the column's sum of exponentials. -/
theorem v11_at (x : XTy) (wq wk : WTy) (b : Fin 4) (m : Fin 4096) :
    val_main_v11 (F := Ideal) x wq wk (ix2 b m) = Attn.colSum wq wk (Attn.slab x b) m := by
  rw [val_main_v11_apply, val_main_cst_1_apply, Ideal.ofBits_def, Ideal.ofBits_zero_f32, zero_add]
  unfold Attn.colSum
  refine Finset.sum_congr rfl fun n _ => ?_
  have e : idx_main_v11 (ix2 b m) n = ix3 b n m :=
    funext fun a => Fin.ext (by match a with | ⟨0, _⟩ => rfl | ⟨1, _⟩ => rfl | ⟨2, _⟩ => rfl)
  rw [e, v10_at]

/-- Spread back over the query axis, the column sum does not depend on the query. -/
theorem v13_at (x : XTy) (wq wk : WTy) (b : Fin 4) (n m : Fin 4096) :
    val_main_v13 (F := Ideal) x wq wk (ix3 b n m) = Attn.colSum wq wk (Attn.slab x b) m := by
  rw [val_main_v13_apply, val_main_v12_apply]
  have e : idx_main_v12 (idx_main_v13 (ix3 b n m)) = ix2 b m :=
    funext fun a => Fin.ext (by match a with | ⟨0, _⟩ => rfl | ⟨1, _⟩ => rfl)
  rw [e, v11_at]

/-- The quotient at (b, n, m) is the attention weight of query n in key m's column. -/
theorem v14_at (x : XTy) (wq wk : WTy) (b : Fin 4) (n m : Fin 4096) :
    val_main_v14 (F := Ideal) x wq wk (ix3 b n m) = Attn.att wq wk (Attn.slab x b) n m := by
  rw [val_main_v14_apply, v10_at, v13_at]
  rfl

/-- The reference's attention array is the specification's. -/
theorem attn_eq (x : (⟨S4x4096x512, .f32⟩ : BufTy).Contents (Elt Ideal))
    (wq wk : (⟨S512x64, .f32⟩ : BufTy).Contents (Elt Ideal)) :
    Read.val_main_v14 (F := Ideal) x wq wk = Attn.attnOut x wq wk := by
  funext i
  obtain ⟨b, n, m, rfl⟩ : ∃ (b : Fin 4) (n : Fin 4096) (m : Fin 4096), i = ix3 b n m :=
    ⟨i 0, i 1, i 2, eq_ix3 i⟩
  exact v14_at x wq wk b n m

/-! ## The mixture and the result -/

/-- The contraction of the weights against the values over the query axis, at (b, m, d): the mixture. -/
theorem v15_at (x : XTy) (wq wk wv : WTy) (b : Fin 4) (m : Fin 4096) (d : Fin 64) :
    val_main_v15 (F := Ideal) x wq wk wv (ix3 b m d) = Attn.mix wq wk wv (Attn.slab x b) m d := by
  rw [val_main_v15_apply]
  unfold Attn.mix
  refine Finset.sum_congr rfl fun n _ => ?_
  have e1 : lidx_main_v15 (ix3 b m d) n = ix3 b n m :=
    funext fun a => Fin.ext (by match a with | ⟨0, _⟩ => rfl | ⟨1, _⟩ => rfl | ⟨2, _⟩ => rfl)
  have e2 : ridx_main_v15 (ix3 b m d) n = ix3 b n d :=
    funext fun a => Fin.ext (by match a with | ⟨0, _⟩ => rfl | ⟨1, _⟩ => rfl | ⟨2, _⟩ => rfl)
  rw [e1, e2, v14_at, v2_at]

/-- The mixture projected back through the 64→512 matrix, at (b, m, c). -/
theorem v16_at (x : XTy) (wq wk wv : WTy) (wo : WoTy) (b : Fin 4) (m : Fin 4096) (c : Fin 512) :
    val_main_v16 (F := Ideal) x wq wk wv wo (ix3 b m c)
      = ∑ d : Fin 64, Attn.mix wq wk wv (Attn.slab x b) m d * wo (ix2 d c) := by
  rw [val_main_v16_apply]
  refine Finset.sum_congr rfl fun d _ => ?_
  have e1 : lidx_main_v16 (ix3 b m c) d = ix3 b m d :=
    funext fun a => Fin.ext (by match a with | ⟨0, _⟩ => rfl | ⟨1, _⟩ => rfl | ⟨2, _⟩ => rfl)
  have e2 : ridx_main_v16 (ix3 b m c) d = ix2 d c :=
    funext fun a => Fin.ext (by match a with | ⟨0, _⟩ => rfl | ⟨1, _⟩ => rfl)
  rw [e1, e2, v15_at]

/-- The scale spread over the whole array is the one number everywhere. -/
theorem v18_at (g : GTy) (i : S4x4096x512.Idx) : val_main_v18 (F := Ideal) g i = g (ix1 (0 : Fin 1)) := by
  rw [val_main_v18_apply, val_main_v17_apply]
  exact congrArg g (funext fun a => Fin.ext (by match a with | ⟨0, _⟩ => rfl))

/-- The token plus its scaled, projected mixture, at (b, m, c). -/
theorem v20_at (x : XTy) (wq wk wv : WTy) (wo : WoTy) (g : GTy) (b : Fin 4) (m : Fin 4096) (c : Fin 512) :
    val_main_v20 (F := Ideal) x wq wk wv wo g (ix3 b m c)
      = Attn.res wq wk wv wo (g (ix1 (0 : Fin 1))) (Attn.slab x b) m c := by
  rw [val_main_v20_apply, val_main_v19_apply, v16_at, v18_at]
  rfl

/-- The reference's result array is the specification's. -/
theorem res_eq (x : (⟨S4x4096x512, .f32⟩ : BufTy).Contents (Elt Ideal))
    (wq wk wv : (⟨S512x64, .f32⟩ : BufTy).Contents (Elt Ideal))
    (wo : (⟨S64x512, .f32⟩ : BufTy).Contents (Elt Ideal)) (g : (⟨S1, .f32⟩ : BufTy).Contents (Elt Ideal)) :
    Read.val_main_v20 (F := Ideal) x wq wk wv wo g = Attn.resOut x wq wk wv wo g := by
  funext i
  obtain ⟨b, m, c, rfl⟩ : ∃ (b : Fin 4) (m : Fin 4096) (c : Fin 512), i = ix3 b m c :=
    ⟨i 0, i 1, i 2, eq_ix3 i⟩
  exact v20_at x wq wk wv wo g b m c

end Cert.ReferenceIdeal.RefValue

end
-- ==== Proof.lean ====
/-
  The kernel computes attention with the softmax taken down the query axis, tile by tile, and its jnp reference
  computes the same with whole-array operations; both results — the token plus its scaled projected mixture, and
  the attention weights — are the same functions of the argument arrays over the extended reals.

  The specification (Proof/Softmax.lean) states the two arrays index by index.  The reference's two results are
  those arrays (Proof/RefAttention.lean: each whole-array operation read at an index; its logit is q·k).  The
  kernel's two result arrays are those arrays (Proof/Arrays.lean): at a batch's first tile the body keeps the query
  and value projections of the batch's slab, every tile reads them (Proof/Found.lean, Proof/Points.lean), and one
  tile's arithmetic at an index is the specification's at (batch, 128·tile + row) (Proof/BodyValues.lean: its logit
  is k·q, equal by commutativity of the product; the row maximum and the row sum are the specification's fold and
  sum; a change of float format is the identity).  No law that fails at an infinity is used, so the finiteness of
  the inputs is never opened.  The three frames are the generated runs; the idealization rewrote nothing.
-/
import proofs.«122561_j13855564497213_1_alg».proof.Defs
import proofs.«122561_j13855564497213_1_alg».proof.Proof.Gen.Kernel
import proofs.«122561_j13855564497213_1_alg».proof.Proof.Gen.Kernel.Frame
import proofs.«122561_j13855564497213_1_alg».proof.Proof.Gen.KernelIdeal
import proofs.«122561_j13855564497213_1_alg».proof.Proof.Gen.KernelIdeal.Frame
import proofs.«122561_j13855564497213_1_alg».proof.Proof.Gen.KernelIdeal.Value
import proofs.«122561_j13855564497213_1_alg».proof.Proof.Gen.ReferenceIdeal
import proofs.«122561_j13855564497213_1_alg».proof.Proof.Gen.ReferenceIdeal.Run
import proofs.«122561_j13855564497213_1_alg».proof.Proof.Gen.ReferenceIdeal.Read
import proofs.«122561_j13855564497213_1_alg».proof.Proof.Gen.Pre_finite_inputs
import proofs.«122561_j13855564497213_1_alg».proof.Proof.Arrays
import proofs.«122561_j13855564497213_1_alg».proof.Proof.RefAttention
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of whole-array operations: it runs, and writes no argument. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the specification's two arrays. -/
theorem algebraic : Cert.algebraic_KernelIdeal_ReferenceIdeal := by
  intro m ρ m' ρ' _ hagree
  refine ⟨fun c => Cert.KernelIdeal.Arrays.resArr m c, fun c => Cert.KernelIdeal.Arrays.attnArr m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v20_eq _ _ _ _ _ _).trans ?_
    rw [Cert.ReferenceIdeal.RefValue.res_eq, (hagree c).1, (hagree c).2.1, (hagree c).2.2.1, (hagree c).2.2.2.1,
      (hagree c).2.2.2.2.1, (hagree c).2.2.2.2.2]
  · refine (Cert.ReferenceIdeal.Read.val_main_v14_eq _ _ _).trans ?_
    rw [Cert.ReferenceIdeal.RefValue.attn_eq, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
